-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x56x56 : Shape := ⟨4, ![32, 64, 56, 56]⟩
abbrev S_ : Shape := ⟨0, ![]⟩

class Facts : Prop where
  bcast_S_S32x64x56x56 : S_.BroadcastsInDim S32x64x56x56 (![] : Fin 0 → Fin S32x64x56x56.rank)
  reducesTo_S32x64x56x56_S_d0_1_2_3 : S32x64x56x56.ReducesTo [0, 1, 2, 3] S_
  h_S_ : 0 < S_.numel

variable [Facts]

def fn {F : FTy → Type} [FloatOps F] (main_arg0 : FVec F S32x64x56x56 .f32) : IVec S_ 1 :=
  let main_v0 : FVec F S32x64x56x56 .f32 := Host.absf main_arg0
  let main_cst : FVec F S_ .f32 := constant S_ .f32 0x7F800000#32
  let main_v1 : FVec F S32x64x56x56 .f32 := broadcastInDim S32x64x56x56 ![] bcast_S_S32x64x56x56 main_cst
  let main_v2 : IVec S32x64x56x56 1 := cmpf .olt main_v0 main_v1
  let main_c : IVec S_ 1 := constantI S_ 1 1#1
  let main_v3 : IVec S_ 1 := (fun x v => Host.reduce IntOp.andi x v reducesTo_S32x64x56x56_S_d0_1_2_3 h_S_) main_v2 main_c
  main_v3
-- ==== Kernel.lean ====
abbrev S32x64x56x56 : Shape := ⟨4, ![32, 64, 56, 56]⟩
abbrev S32x64x9x56x56 : Shape := ⟨5, ![32, 64, 9, 56, 56]⟩
abbrev S1x64x56x56 : Shape := ⟨4, ![1, 64, 56, 56]⟩
abbrev S1x64x9x56x56 : Shape := ⟨5, ![1, 64, 9, 56, 56]⟩
abbrev S64x58x58 : Shape := ⟨3, ![64, 58, 58]⟩
abbrev S64x56x56 : Shape := ⟨3, ![64, 56, 56]⟩
abbrev S1x64x1x56x56 : Shape := ⟨5, ![1, 64, 1, 56, 56]⟩
abbrev S32x576x56x56 : Shape := ⟨4, ![32, 576, 56, 56]⟩

abbrev nBuf : Space → Nat
  | .hbm => 3
  | .vmem => 5
  | .smem => 0
  | _ => 0

abbrev bufTy : (tb : Table) → Fin (tcTables nBuf tb) → BufTy
  | .hbm, ⟨0, _⟩ => ⟨S32x64x56x56, .f32⟩
  | .hbm, ⟨1, _⟩ => ⟨S32x64x9x56x56, .f32⟩
  | .hbm, ⟨2, _⟩ => ⟨S32x576x56x56, .f32⟩
  | .local _ .vmem, ⟨0, _⟩ => ⟨S1x64x56x56, .f32⟩
  | .local _ .vmem, ⟨1, _⟩ => ⟨S1x64x56x56, .f32⟩
  | .local _ .vmem, ⟨2, _⟩ => ⟨S1x64x9x56x56, .f32⟩
  | .local _ .vmem, ⟨3, _⟩ => ⟨S1x64x9x56x56, .f32⟩
  | .local _ .vmem, ⟨4, _⟩ => ⟨S64x58x58, .f32⟩
  | _, _ => ⟨S32x64x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S1x64x56x56 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x9x56x56 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S64x58x58_S64x58x58_0_0_0 : ∀ a, (![0, 0, 0] : Fin 3 → Nat) a + S64x58x58.size a ≤ S64x58x58.size a
  h_S64x58x58 : 0 < S64x58x58.numel
  shapeCasts_S64x58x58_S64x58x58 : S64x58x58.ShapeCasts S64x58x58
  inb_S1x64x56x56_S1x64x56x56_0_0_0_0 : ∀ a, (![0, 0, 0, 0] : Fin 4 → Nat) a + S1x64x56x56.size a ≤ S1x64x56x56.size a
  h_S1x64x56x56 : 0 < S1x64x56x56.numel
  shapeCasts_S1x64x56x56_S64x56x56 : S1x64x56x56.ShapeCasts S64x56x56
  inb_S64x58x58_S64x56x56_0_1_1 : ∀ a, (![0, 1, 1] : Fin 3 → Nat) a + S64x56x56.size a ≤ S64x58x58.size a
  h_S64x56x56 : 0 < S64x56x56.numel
  shapeCasts_S64x56x56_S64x56x56 : S64x56x56.ShapeCasts S64x56x56
  inb_S64x58x58_S64x56x56_0_0_0 : ∀ a, (![0, 0, 0] : Fin 3 → Nat) a + S64x56x56.size a ≤ S64x58x58.size a
  inb_S1x64x9x56x56_S1x64x1x56x56_0_0_0_0_0 : ∀ a, (![0, 0, 0, 0, 0] : Fin 5 → Nat) a + S1x64x1x56x56.size a ≤ S1x64x9x56x56.size a
  h_S1x64x1x56x56 : 0 < S1x64x1x56x56.numel
  shapeCasts_S1x64x1x56x56_S64x56x56 : S1x64x1x56x56.ShapeCasts S64x56x56
  shapeCasts_S64x56x56_S1x64x1x56x56 : S64x56x56.ShapeCasts S1x64x1x56x56
  inb_S64x58x58_S64x56x56_0_0_1 : ∀ a, (![0, 0, 1] : Fin 3 → Nat) a + S64x56x56.size a ≤ S64x58x58.size a
  inb_S1x64x9x56x56_S1x64x1x56x56_0_0_1_0_0 : ∀ a, (![0, 0, 1, 0, 0] : Fin 5 → Nat) a + S1x64x1x56x56.size a ≤ S1x64x9x56x56.size a
  inb_S64x58x58_S64x56x56_0_0_2 : ∀ a, (![0, 0, 2] : Fin 3 → Nat) a + S64x56x56.size a ≤ S64x58x58.size a
  inb_S1x64x9x56x56_S1x64x1x56x56_0_0_2_0_0 : ∀ a, (![0, 0, 2, 0, 0] : Fin 5 → Nat) a + S1x64x1x56x56.size a ≤ S1x64x9x56x56.size a
  inb_S64x58x58_S64x56x56_0_1_0 : ∀ a, (![0, 1, 0] : Fin 3 → Nat) a + S64x56x56.size a ≤ S64x58x58.size a
  inb_S1x64x9x56x56_S1x64x1x56x56_0_0_3_0_0 : ∀ a, (![0, 0, 3, 0, 0] : Fin 5 → Nat) a + S1x64x1x56x56.size a ≤ S1x64x9x56x56.size a
  inb_S1x64x9x56x56_S1x64x1x56x56_0_0_4_0_0 : ∀ a, (![0, 0, 4, 0, 0] : Fin 5 → Nat) a + S1x64x1x56x56.size a ≤ S1x64x9x56x56.size a
  inb_S64x58x58_S64x56x56_0_1_2 : ∀ a, (![0, 1, 2] : Fin 3 → Nat) a + S64x56x56.size a ≤ S64x58x58.size a
  inb_S1x64x9x56x56_S1x64x1x56x56_0_0_5_0_0 : ∀ a, (![0, 0, 5, 0, 0] : Fin 5 → Nat) a + S1x64x1x56x56.size a ≤ S1x64x9x56x56.size a
  inb_S64x58x58_S64x56x56_0_2_0 : ∀ a, (![0, 2, 0] : Fin 3 → Nat) a + S64x56x56.size a ≤ S64x58x58.size a
  inb_S1x64x9x56x56_S1x64x1x56x56_0_0_6_0_0 : ∀ a, (![0, 0, 6, 0, 0] : Fin 5 → Nat) a + S1x64x1x56x56.size a ≤ S1x64x9x56x56.size a
  inb_S64x58x58_S64x56x56_0_2_1 : ∀ a, (![0, 2, 1] : Fin 3 → Nat) a + S64x56x56.size a ≤ S64x58x58.size a
  inb_S1x64x9x56x56_S1x64x1x56x56_0_0_7_0_0 : ∀ a, (![0, 0, 7, 0, 0] : Fin 5 → Nat) a + S1x64x1x56x56.size a ≤ S1x64x9x56x56.size a
  inb_S64x58x58_S64x56x56_0_2_2 : ∀ a, (![0, 2, 2] : Fin 3 → Nat) a + S64x56x56.size a ≤ S64x58x58.size a
  inb_S1x64x9x56x56_S1x64x1x56x56_0_0_8_0_0 : ∀ a, (![0, 0, 8, 0, 0] : Fin 5 → Nat) a + S1x64x1x56x56.size a ≤ S1x64x9x56x56.size a
  shapeCasts_S32x64x9x56x56_S32x576x56x56 : S32x64x9x56x56.ShapeCasts S32x576x56x56
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x56x56.size a ≤ S32x64x56x56.size a
  hwx0_0 : ∀ i : grid0.Coords, EltTy.bits .f32 = 32 ∨ (Rect.block (s := S32x64x56x56) S1x64x56x56.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x9x56x56.size a ≤ S32x64x9x56x56.size a
  hwx0_1 : ∀ i : grid0.Coords, EltTy.bits .f32 = 32 ∨ (Rect.block (s := S32x64x9x56x56) S1x64x9x56x56.size (cc0_transform_1 i) (hinb0_1 i)).WholeWords (EltTy.packing .f32)

variable [Facts₀]

abbrev win0_0 : Pipeline.Window sig grid0 :=
  Pipeline.Window.ofSpec (Memref.whole main_arg0) S1x64x56x56.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x64x9x56x56.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x64x56x56 : Shape := ⟨4, ![32, 64, 56, 56]⟩
abbrev S_ : Shape := ⟨0, ![]⟩
abbrev S32x64x58x58 : Shape := ⟨4, ![32, 64, 58, 58]⟩
abbrev S32x64x1x56x56 : Shape := ⟨5, ![32, 64, 1, 56, 56]⟩
abbrev S32x64x9x56x56 : Shape := ⟨5, ![32, 64, 9, 56, 56]⟩
abbrev S32x576x56x56 : Shape := ⟨4, ![32, 576, 56, 56]⟩

abbrev nBuf : Space → Nat
  | .hbm => 24
  | .vmem => 0
  | .smem => 0
  | _ => 0

abbrev bufTy : (tb : Table) → Fin (tcTables nBuf tb) → BufTy
  | .hbm, ⟨0, _⟩ => ⟨S32x64x56x56, .f32⟩
  | .hbm, ⟨1, _⟩ => ⟨S_, .i32⟩
  | .hbm, ⟨2, _⟩ => ⟨S_, .f32⟩
  | .hbm, ⟨3, _⟩ => ⟨S32x64x58x58, .f32⟩
  | .hbm, ⟨4, _⟩ => ⟨S32x64x56x56, .f32⟩
  | .hbm, ⟨5, _⟩ => ⟨S32x64x56x56, .f32⟩
  | .hbm, ⟨6, _⟩ => ⟨S32x64x56x56, .f32⟩
  | .hbm, ⟨7, _⟩ => ⟨S32x64x56x56, .f32⟩
  | .hbm, ⟨8, _⟩ => ⟨S32x64x56x56, .f32⟩
  | .hbm, ⟨9, _⟩ => ⟨S32x64x56x56, .f32⟩
  | .hbm, ⟨10, _⟩ => ⟨S32x64x56x56, .f32⟩
  | .hbm, ⟨11, _⟩ => ⟨S32x64x56x56, .f32⟩
  | .hbm, ⟨12, _⟩ => ⟨S32x64x56x56, .f32⟩
  | .hbm, ⟨13, _⟩ => ⟨S32x64x1x56x56, .f32⟩
  | .hbm, ⟨14, _⟩ => ⟨S32x64x1x56x56, .f32⟩
  | .hbm, ⟨15, _⟩ => ⟨S32x64x1x56x56, .f32⟩
  | .hbm, ⟨16, _⟩ => ⟨S32x64x1x56x56, .f32⟩
  | .hbm, ⟨17, _⟩ => ⟨S32x64x1x56x56, .f32⟩
  | .hbm, ⟨18, _⟩ => ⟨S32x64x1x56x56, .f32⟩
  | .hbm, ⟨19, _⟩ => ⟨S32x64x1x56x56, .f32⟩
  | .hbm, ⟨20, _⟩ => ⟨S32x64x1x56x56, .f32⟩
  | .hbm, ⟨21, _⟩ => ⟨S32x64x1x56x56, .f32⟩
  | .hbm, ⟨22, _⟩ => ⟨S32x64x9x56x56, .f32⟩
  | .hbm, ⟨23, _⟩ => ⟨S32x576x56x56, .f32⟩
  | _, _ => ⟨S32x64x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩

abbrev nD : Nat := 1
abbrev τ : Topo := Topo.v7x

variable {F : FTy → Type} [FloatOps F]

class Facts₀ : Prop where
  pads_S32x64x56x56_S32x64x58x58_000_000_110_110 : S32x64x56x56.Pads (![0, 0, 1, 1] : Fin 4 → Nat) ![0, 0, 1, 1] ![0, 0, 0, 0] S32x64x58x58
  h_S_ : 0 < S_.numel
  slices_S32x64x58x58_S32x64x56x56_0_0_0_0 : S32x64x58x58.Slices ![0, 0, 0, 0] S32x64x56x56
  slices_S32x64x58x58_S32x64x56x56_0_0_0_1 : S32x64x58x58.Slices ![0, 0, 0, 1] S32x64x56x56
  slices_S32x64x58x58_S32x64x56x56_0_0_0_2 : S32x64x58x58.Slices ![0, 0, 0, 2] S32x64x56x56
  slices_S32x64x58x58_S32x64x56x56_0_0_1_0 : S32x64x58x58.Slices ![0, 0, 1, 0] S32x64x56x56
  slices_S32x64x58x58_S32x64x56x56_0_0_1_1 : S32x64x58x58.Slices ![0, 0, 1, 1] S32x64x56x56
  slices_S32x64x58x58_S32x64x56x56_0_0_1_2 : S32x64x58x58.Slices ![0, 0, 1, 2] S32x64x56x56
  slices_S32x64x58x58_S32x64x56x56_0_0_2_0 : S32x64x58x58.Slices ![0, 0, 2, 0] S32x64x56x56
  slices_S32x64x58x58_S32x64x56x56_0_0_2_1 : S32x64x58x58.Slices ![0, 0, 2, 1] S32x64x56x56
  slices_S32x64x58x58_S32x64x56x56_0_0_2_2 : S32x64x58x58.Slices ![0, 0, 2, 2] S32x64x56x56
  bcast_S32x64x56x56_S32x64x1x56x56_0_1_3_4 : S32x64x56x56.BroadcastsInDim S32x64x1x56x56 (![0, 1, 3, 4] : Fin 4 → Fin S32x64x1x56x56.rank)
  concatenates_S32x64x1x56x56_S32x64x1x56x56_S32x64x1x56x56_S32x64x1x56x56_S32x64x1x56x56_S32x64x1x56x56_S32x64x1x56x56_S32x64x1x56x56_S32x64x1x56x56_S32x64x9x56x56_d2 : Shape.Concatenates [S32x64x1x56x56, S32x64x1x56x56, S32x64x1x56x56, S32x64x1x56x56, S32x64x1x56x56, S32x64x1x56x56, S32x64x1x56x56, S32x64x1x56x56, S32x64x1x56x56] S32x64x9x56x56 2
  shapeCasts_S32x64x9x56x56_S32x576x56x56 : S32x64x9x56x56.ShapeCasts S32x576x56x56

variable [Facts₀]

class Facts : Prop extends Facts₀ where

variable [Facts]
-- ==== Proof.ShiftSpec.lean ====
/-
  The specification of the shift operator, with no program in sight.

  The input is an array `x` of extents 32 × 64 × 56 × 56 (batch, channel, row, column). Padding it with one
  ring of zeros in the two spatial axes gives an array of extents 32 × 64 × 58 × 58 whose entry at the padded
  position `(Y, X)` is `x` at `(Y - 1, X - 1)` when `1 ≤ Y ≤ 56` and `1 ≤ X ≤ 56`, and zero on the
  ring (`padded`). The operator's result has one more axis, of extent 9, right after the channel axis: slot
  `s = 3·dy + dx` holds the 56 × 56 window of the padded array that starts at `(dy, dx)`, so the entry at
  `(n, c, s, y, x)` is the padded array at `(y + s / 3, x + s % 3)` (`shifted`).
-/
import Idealize.ShloMosaic.PureOps.Ideal
import Idealize.ShloMosaic.Lib.ValueIdx

noncomputable section

namespace Cert.Shift

open Idealize.ShloMosaic Idealize.ShloMosaic.ValueIdx

/-- The input array's shape. -/
abbrev SIn : Shape := ⟨4, ![32, 64, 56, 56]⟩
/-- The result's shape before the channel and slot axes are merged. -/
abbrev SOut : Shape := ⟨5, ![32, 64, 9, 56, 56]⟩

/-- The zero-padded input at batch `n`, channel `c` and padded position `(Y, X)`: the input one step up and to
    the left inside the 56 × 56 interior, zero on the ring around it. -/
def padded (x : SIn.Idx → EReal) (n : Fin 32) (c : Fin 64) (Y X : Nat) : EReal :=
  if h : (1 ≤ Y ∧ Y < 57) ∧ (1 ≤ X ∧ X < 57) then
    x (ix4 n c ⟨Y - 1, by omega⟩ ⟨X - 1, by omega⟩)
  else 0

/-- The nine shifted windows, stacked on a new axis after the channel axis: slot `s` is the window of the padded
    array that starts at row `s / 3` and column `s % 3`. -/
def shifted (x : SIn.Idx → EReal) : SOut.Idx → EReal := fun j =>
  padded x (j 0) (j 1) ((j 3).val + (j 2).val / 3) ((j 4).val + (j 2).val % 3)

theorem shifted_apply (x : SIn.Idx → EReal) (n : Fin 32) (c : Fin 64) (s : Fin 9) (y w : Fin 56) :
    shifted x (ix5 n c s y w) = padded x n c (y.val + s.val / 3) (w.val + s.val % 3) := rfl

/-- On the interior the padded array is the input, one step up and to the left. -/
theorem padded_inside (x : SIn.Idx → EReal) (n : Fin 32) (c : Fin 64) (Y X : Nat)
    (hY : 1 ≤ Y ∧ Y < 57) (hX : 1 ≤ X ∧ X < 57) :
    padded x n c Y X = x (ix4 n c ⟨Y - 1, by omega⟩ ⟨X - 1, by omega⟩) := by
  unfold padded; rw [dif_pos ⟨hY, hX⟩]

/-- On the ring the padded array is zero. -/
theorem padded_ring (x : SIn.Idx → EReal) (n : Fin 32) (c : Fin 64) (Y X : Nat)
    (h : ¬((1 ≤ Y ∧ Y < 57) ∧ (1 ≤ X ∧ X < 57))) : padded x n c Y X = 0 := by
  unfold padded; rw [dif_neg h]

end Cert.Shift

end
-- ==== Proof.ShiftRef.lean ====
/-
  The reference computes the shift operator's specification.

  The reference pads the input with one ring of the value `float(0)` in the two spatial axes, takes the nine
  56 × 56 windows of the padded array that start at `(dy, dx)`, `dy, dx ∈ {0, 1, 2}`, gives each a unit axis
  after the channel axis, and joins them along that axis in the order `s = 3·dy + dx`. Read at an index
  `(n, c, s, y, x)`: the join picks window `s`, the window reads the padded array at `(y + dy, x + dx)`, and the
  padded array there is the input one step up and to the left, or zero on the ring — which is `Cert.Shift.shifted`.
-/
import proofs.«148560_j14422500180434_1_alg».proof.Proof.Gen.ReferenceIdeal.Read
import proofs.«148560_j14422500180434_1_alg».proof.Proof.ShiftSpec
import Idealize.ShloMosaic.Lib.KernelVsHost
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx Cert.Shift

/-- The padding value, the integer zero converted to a float, is the real number zero. -/
theorem pad_value : val_main_call0_v0 (F := Ideal) (Shape.Idx.first h_S_) = 0 := by
  rw [val_main_call0_v0_apply, val_main_c_apply]
  show (((0#32 : BitVec 32).toInt : ℝ) : EReal) = 0
  simp

/-- The padded array at any index: the input one step up and to the left inside the interior, zero on the ring. -/
theorem pad_at (x0 : (⟨S32x64x56x56, .f32⟩ : BufTy).Contents (Elt Ideal)) (j : S32x64x58x58.Idx) :
    val_main_v0 (F := Ideal) x0 j = padded x0 (j 0) (j 1) (j 2).val (j 3).val := by
  unfold val_main_v0
  by_cases h : (1 ≤ (j 2).val ∧ (j 2).val < 57) ∧ (1 ≤ (j 3).val ∧ (j 3).val < 57)
  · refine (pad_apply_of_inside _ _ _ x0 _ _ _ j _ (fun a => match a with
      | ⟨0, _⟩ => by show (j 0).val = 0 + (j 0).val * (0 + 1); omega
      | ⟨1, _⟩ => by show (j 1).val = 0 + (j 1).val * (0 + 1); omega
      | ⟨2, _⟩ => by show (j 2).val = 1 + ((j 2).val - 1) * (0 + 1); omega
      | ⟨3, _⟩ => by show (j 3).val = 1 + ((j 3).val - 1) * (0 + 1); omega)).trans
        (padded_inside x0 (j 0) (j 1) _ _ h.1 h.2).symm
  · refine Eq.trans ?_ (padded_ring x0 (j 0) (j 1) _ _ h).symm
    by_cases h2 : 1 ≤ (j 2).val ∧ (j 2).val < 57
    · have h3 : ¬(1 ≤ (j 3).val ∧ (j 3).val < 57) := fun h3 => h ⟨h2, h3⟩
      refine (pad_apply_of_not_inside _ _ _ x0 _ _ _ j 3 ?_).trans pad_value
      show ¬(1 ≤ (j 3).val ∧ ((j 3).val - 1) % (0 + 1) = 0 ∧ ((j 3).val - 1) / (0 + 1) < 56)
      omega
    · refine (pad_apply_of_not_inside _ _ _ x0 _ _ _ j 2 ?_).trans pad_value
      show ¬(1 ≤ (j 2).val ∧ ((j 2).val - 1) % (0 + 1) = 0 ∧ ((j 2).val - 1) / (0 + 1) < 56)
      omega

/-- One of nine things, by its number. -/
def pick9 {β : Type} (u0 u1 u2 u3 u4 u5 u6 u7 u8 : β) : Fin 9 → β
  | ⟨0, _⟩ => u0 | ⟨1, _⟩ => u1 | ⟨2, _⟩ => u2 | ⟨3, _⟩ => u3 | ⟨4, _⟩ => u4
  | ⟨5, _⟩ => u5 | ⟨6, _⟩ => u6 | ⟨7, _⟩ => u7 | ⟨8, _⟩ => u8

/-- Nine arrays with a unit axis joined along it, read at an index: the array the index's coordinate on the joined
    axis names, at the same coordinates elsewhere. -/
theorem concat9_apply {α : Type} (u0 u1 u2 u3 u4 u5 u6 u7 u8 : S32x64x1x56x56.Idx → α)
    (n : Fin 32) (c : Fin 64) (s : Fin 9) (y w : Fin 56) :
    concatenate S32x64x9x56x56 2 [⟨S32x64x1x56x56, u0⟩, ⟨S32x64x1x56x56, u1⟩, ⟨S32x64x1x56x56, u2⟩, ⟨S32x64x1x56x56, u3⟩, ⟨S32x64x1x56x56, u4⟩, ⟨S32x64x1x56x56, u5⟩, ⟨S32x64x1x56x56, u6⟩, ⟨S32x64x1x56x56, u7⟩, ⟨S32x64x1x56x56, u8⟩]
        concatenates_S32x64x1x56x56_S32x64x1x56x56_S32x64x1x56x56_S32x64x1x56x56_S32x64x1x56x56_S32x64x1x56x56_S32x64x1x56x56_S32x64x1x56x56_S32x64x1x56x56_S32x64x9x56x56_d2 (ix5 n c s y w)
      = pick9 u0 u1 u2 u3 u4 u5 u6 u7 u8 s (ix5 n c (0 : Fin 1) y w) := by
  match s with
  | ⟨0, _⟩ =>
    refine concatenate_apply_piece 2 _ _ (ix5 n c (⟨0, by decide⟩ : Fin 9) y w) 0 ?_ S32x64x1x56x56 _ ?_ rfl 0 ?_ (ix5 n c (0 : Fin 1) y w) ?_ ?_
    · show 0 < 9; omega
    · rfl
    · first | rfl | decide
    · intro b hb
      match b, hb with
      | ⟨0, _⟩, _ => rfl
      | ⟨1, _⟩, _ => rfl
      | ⟨2, _⟩, hb => exact absurd rfl hb
      | ⟨3, _⟩, _ => rfl
      | ⟨4, _⟩, _ => rfl
    · rfl
  | ⟨1, _⟩ =>
    refine concatenate_apply_piece 2 _ _ (ix5 n c (⟨1, by decide⟩ : Fin 9) y w) 1 ?_ S32x64x1x56x56 _ ?_ rfl 1 ?_ (ix5 n c (0 : Fin 1) y w) ?_ ?_
    · show 1 < 9; omega
    · rfl
    · first | rfl | decide
    · intro b hb
      match b, hb with
      | ⟨0, _⟩, _ => rfl
      | ⟨1, _⟩, _ => rfl
      | ⟨2, _⟩, hb => exact absurd rfl hb
      | ⟨3, _⟩, _ => rfl
      | ⟨4, _⟩, _ => rfl
    · rfl
  | ⟨2, _⟩ =>
    refine concatenate_apply_piece 2 _ _ (ix5 n c (⟨2, by decide⟩ : Fin 9) y w) 2 ?_ S32x64x1x56x56 _ ?_ rfl 2 ?_ (ix5 n c (0 : Fin 1) y w) ?_ ?_
    · show 2 < 9; omega
    · rfl
    · first | rfl | decide
    · intro b hb
      match b, hb with
      | ⟨0, _⟩, _ => rfl
      | ⟨1, _⟩, _ => rfl
      | ⟨2, _⟩, hb => exact absurd rfl hb
      | ⟨3, _⟩, _ => rfl
      | ⟨4, _⟩, _ => rfl
    · rfl
  | ⟨3, _⟩ =>
    refine concatenate_apply_piece 2 _ _ (ix5 n c (⟨3, by decide⟩ : Fin 9) y w) 3 ?_ S32x64x1x56x56 _ ?_ rfl 3 ?_ (ix5 n c (0 : Fin 1) y w) ?_ ?_
    · show 3 < 9; omega
    · rfl
    · first | rfl | decide
    · intro b hb
      match b, hb with
      | ⟨0, _⟩, _ => rfl
      | ⟨1, _⟩, _ => rfl
      | ⟨2, _⟩, hb => exact absurd rfl hb
      | ⟨3, _⟩, _ => rfl
      | ⟨4, _⟩, _ => rfl
    · rfl
  | ⟨4, _⟩ =>
    refine concatenate_apply_piece 2 _ _ (ix5 n c (⟨4, by decide⟩ : Fin 9) y w) 4 ?_ S32x64x1x56x56 _ ?_ rfl 4 ?_ (ix5 n c (0 : Fin 1) y w) ?_ ?_
    · show 4 < 9; omega
    · rfl
    · first | rfl | decide
    · intro b hb
      match b, hb with
      | ⟨0, _⟩, _ => rfl
      | ⟨1, _⟩, _ => rfl
      | ⟨2, _⟩, hb => exact absurd rfl hb
      | ⟨3, _⟩, _ => rfl
      | ⟨4, _⟩, _ => rfl
    · rfl
  | ⟨5, _⟩ =>
    refine concatenate_apply_piece 2 _ _ (ix5 n c (⟨5, by decide⟩ : Fin 9) y w) 5 ?_ S32x64x1x56x56 _ ?_ rfl 5 ?_ (ix5 n c (0 : Fin 1) y w) ?_ ?_
    · show 5 < 9; omega
    · rfl
    · first | rfl | decide
    · intro b hb
      match b, hb with
      | ⟨0, _⟩, _ => rfl
      | ⟨1, _⟩, _ => rfl
      | ⟨2, _⟩, hb => exact absurd rfl hb
      | ⟨3, _⟩, _ => rfl
      | ⟨4, _⟩, _ => rfl
    · rfl
  | ⟨6, _⟩ =>
    refine concatenate_apply_piece 2 _ _ (ix5 n c (⟨6, by decide⟩ : Fin 9) y w) 6 ?_ S32x64x1x56x56 _ ?_ rfl 6 ?_ (ix5 n c (0 : Fin 1) y w) ?_ ?_
    · show 6 < 9; omega
    · rfl
    · first | rfl | decide
    · intro b hb
      match b, hb with
      | ⟨0, _⟩, _ => rfl
      | ⟨1, _⟩, _ => rfl
      | ⟨2, _⟩, hb => exact absurd rfl hb
      | ⟨3, _⟩, _ => rfl
      | ⟨4, _⟩, _ => rfl
    · rfl
  | ⟨7, _⟩ =>
    refine concatenate_apply_piece 2 _ _ (ix5 n c (⟨7, by decide⟩ : Fin 9) y w) 7 ?_ S32x64x1x56x56 _ ?_ rfl 7 ?_ (ix5 n c (0 : Fin 1) y w) ?_ ?_
    · show 7 < 9; omega
    · rfl
    · first | rfl | decide
    · intro b hb
      match b, hb with
      | ⟨0, _⟩, _ => rfl
      | ⟨1, _⟩, _ => rfl
      | ⟨2, _⟩, hb => exact absurd rfl hb
      | ⟨3, _⟩, _ => rfl
      | ⟨4, _⟩, _ => rfl
    · rfl
  | ⟨8, _⟩ =>
    refine concatenate_apply_piece 2 _ _ (ix5 n c (⟨8, by decide⟩ : Fin 9) y w) 8 ?_ S32x64x1x56x56 _ ?_ rfl 8 ?_ (ix5 n c (0 : Fin 1) y w) ?_ ?_
    · show 8 < 9; omega
    · rfl
    · first | rfl | decide
    · intro b hb
      match b, hb with
      | ⟨0, _⟩, _ => rfl
      | ⟨1, _⟩, _ => rfl
      | ⟨2, _⟩, hb => exact absurd rfl hb
      | ⟨3, _⟩, _ => rfl
      | ⟨4, _⟩, _ => rfl
    · rfl

/-- The joined array is the specification: slot `s` is the window of the padded array starting at `(s / 3, s % 3)`. -/
theorem ref_eq (x0 : (⟨S32x64x56x56, .f32⟩ : BufTy).Contents (Elt Ideal)) :
    val_main_v19 (F := Ideal) x0 = shifted x0 := by
  funext j
  obtain ⟨n, c, s, y, w, rfl⟩ : ∃ (n : Fin 32) (c : Fin 64) (s : Fin 9) (y w : Fin 56), j = ix5 n c s y w :=
    ⟨j 0, j 1, j 2, j 3, j 4, eq_ix5 j⟩
  rw [shifted_apply]
  unfold val_main_v19
  refine (concat9_apply _ _ _ _ _ _ _ _ _ n c s y w).trans ?_
  match s with
  | ⟨0, _⟩ =>
    show val_main_v10 (F := Ideal) x0 (ix5 n c (0 : Fin 1) y w) = _
    refine ((val_main_v10_apply x0 _).trans ((val_main_v1_apply x0 _).trans (pad_at x0 _))).trans ?_
    show padded x0 n c (y.val) (w.val) = padded x0 n c (y.val + 0 / 3) (w.val + 0 % 3)
    exact congrArg₂ (padded x0 n c) (by omega) (by omega)
  | ⟨1, _⟩ =>
    show val_main_v11 (F := Ideal) x0 (ix5 n c (0 : Fin 1) y w) = _
    refine ((val_main_v11_apply x0 _).trans ((val_main_v2_apply x0 _).trans (pad_at x0 _))).trans ?_
    show padded x0 n c (y.val) (1 + w.val) = padded x0 n c (y.val + 1 / 3) (w.val + 1 % 3)
    exact congrArg₂ (padded x0 n c) (by omega) (by omega)
  | ⟨2, _⟩ =>
    show val_main_v12 (F := Ideal) x0 (ix5 n c (0 : Fin 1) y w) = _
    refine ((val_main_v12_apply x0 _).trans ((val_main_v3_apply x0 _).trans (pad_at x0 _))).trans ?_
    show padded x0 n c (y.val) (2 + w.val) = padded x0 n c (y.val + 2 / 3) (w.val + 2 % 3)
    exact congrArg₂ (padded x0 n c) (by omega) (by omega)
  | ⟨3, _⟩ =>
    show val_main_v13 (F := Ideal) x0 (ix5 n c (0 : Fin 1) y w) = _
    refine ((val_main_v13_apply x0 _).trans ((val_main_v4_apply x0 _).trans (pad_at x0 _))).trans ?_
    show padded x0 n c (1 + y.val) (w.val) = padded x0 n c (y.val + 3 / 3) (w.val + 3 % 3)
    exact congrArg₂ (padded x0 n c) (by omega) (by omega)
  | ⟨4, _⟩ =>
    show val_main_v14 (F := Ideal) x0 (ix5 n c (0 : Fin 1) y w) = _
    refine ((val_main_v14_apply x0 _).trans ((val_main_v5_apply x0 _).trans (pad_at x0 _))).trans ?_
    show padded x0 n c (1 + y.val) (1 + w.val) = padded x0 n c (y.val + 4 / 3) (w.val + 4 % 3)
    exact congrArg₂ (padded x0 n c) (by omega) (by omega)
  | ⟨5, _⟩ =>
    show val_main_v15 (F := Ideal) x0 (ix5 n c (0 : Fin 1) y w) = _
    refine ((val_main_v15_apply x0 _).trans ((val_main_v6_apply x0 _).trans (pad_at x0 _))).trans ?_
    show padded x0 n c (1 + y.val) (2 + w.val) = padded x0 n c (y.val + 5 / 3) (w.val + 5 % 3)
    exact congrArg₂ (padded x0 n c) (by omega) (by omega)
  | ⟨6, _⟩ =>
    show val_main_v16 (F := Ideal) x0 (ix5 n c (0 : Fin 1) y w) = _
    refine ((val_main_v16_apply x0 _).trans ((val_main_v7_apply x0 _).trans (pad_at x0 _))).trans ?_
    show padded x0 n c (2 + y.val) (w.val) = padded x0 n c (y.val + 6 / 3) (w.val + 6 % 3)
    exact congrArg₂ (padded x0 n c) (by omega) (by omega)
  | ⟨7, _⟩ =>
    show val_main_v17 (F := Ideal) x0 (ix5 n c (0 : Fin 1) y w) = _
    refine ((val_main_v17_apply x0 _).trans ((val_main_v8_apply x0 _).trans (pad_at x0 _))).trans ?_
    show padded x0 n c (2 + y.val) (1 + w.val) = padded x0 n c (y.val + 7 / 3) (w.val + 7 % 3)
    exact congrArg₂ (padded x0 n c) (by omega) (by omega)
  | ⟨8, _⟩ =>
    show val_main_v18 (F := Ideal) x0 (ix5 n c (0 : Fin 1) y w) = _
    refine ((val_main_v18_apply x0 _).trans ((val_main_v9_apply x0 _).trans (pad_at x0 _))).trans ?_
    show padded x0 n c (2 + y.val) (2 + w.val) = padded x0 n c (y.val + 8 / 3) (w.val + 8 % 3)
    exact congrArg₂ (padded x0 n c) (by omega) (by omega)

/-- So the reference's result is the specification with its channel and slot axes merged. -/
theorem result_eq (x0 : (⟨S32x64x56x56, .f32⟩ : BufTy).Contents (Elt Ideal)) :
    val_main_v20 (F := Ideal) x0 = shapeCast S32x576x56x56 (shifted x0) shapeCasts_S32x64x9x56x56_S32x576x56x56 := by
  unfold val_main_v20
  rw [ref_eq]

end Cert.ReferenceIdeal.RefValue

end
-- ==== Proof.ShiftBody.lean ====
/-
  What the kernel's body leaves in its output block, as a function of its input block.

  At a grid point the body works on one batch entry: an input block `x0` of extents 1 × 64 × 56 × 56. It fills
  a scratch buffer of extents 64 × 58 × 58 with zeros, then stores `x0` (without its unit axis) into the interior
  at offset `(1, 1)`. So the scratch holds `x0` one step down and to the right inside the interior and zero on
  the ring (`scratch_inside`, `scratch_ring`). It then stores nine 64 × 56 × 56 windows of the scratch, the one
  starting at `(dy, dx)` into slot `s = 3·dy + dx` of the output block of extents 1 × 64 × 9 × 56 × 56. The nine
  stores tile the block, and each is the same function of the block index: entry `(0, c, s, y, x)` is the scratch
  at `(c, y + s / 3, x + s % 3)` (`out_eq`). All of this holds for any float values: nothing is computed.
-/
import proofs.«148560_j14422500180434_1_alg».proof.Proof.Gen.KernelIdeal.Frame
import Idealize.ShloMosaic.Lib.Pipeline.Value
import Idealize.ShloMosaic.Lib.Tactic
import Idealize.ShloMosaic.Lib.ValueIdx

noncomputable section

open Idealize.ShloMosaic Idealize.ShloMosaic.TcCoe Idealize.SL.Sem Idealize.ShloMosaic.ValueIdx

namespace Cert.KernelIdeal.Body

open Cert.KernelIdeal Cert.KernelIdeal.Gen

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## The scratch -/

/-- The two stores into the scratch, the last first: the input block into the interior, over the zero fill. -/
def scratchStores (x0 : Vec F S1x64x56x56 .f32) : List (View.Piece (Elt F) S64x58x58 .f32) :=
  [⟨Rect.unit (s := S64x58x58) ![0, 1, 1] S64x56x56.size inb_S64x58x58_S64x56x56_0_1_1, k0_pay4 x0⟩,
   ⟨Rect.unit (s := S64x58x58) ![0, 0, 0] S64x58x58.size inb_S64x58x58_S64x58x58_0_0_0, k0_pay3⟩]

/-- What the scratch holds after them. -/
def scratch (x0 : Vec F S1x64x56x56 .f32) : S64x58x58.Idx → Elt F .f32 := View.canon (scratchStores x0)

/-- The input block stored into the interior is the block without its unit axis. -/
theorem pay4_apply (x0 : Vec F S1x64x56x56 .f32) (c : Fin 64) (y w : Fin 56) :
    k0_pay4 x0 (ix3 c y w) = x0 (ix4 (0 : Fin 1) c y w) := by
  show shapeCast S64x56x56 (shapeCast S64x56x56 x0 shapeCasts_S1x64x56x56_S64x56x56) shapeCasts_S64x56x56_S64x56x56 (ix3 c y w) = _
  rw [shapeCast_self]
  exact shapeCast_apply x0 _ _ _ (by
    rewrite [Shape.rowMajor_val_four, Shape.rowMajor_val_three]
    show ((0 * 64 + c.val) * 56 + y.val) * 56 + w.val = (c.val * 56 + y.val) * 56 + w.val
    omega)

/-- Inside the interior the scratch is the input block, one step up and to the left. -/
theorem scratch_inside (x0 : Vec F S1x64x56x56 .f32) (c : Fin 64) (Y X : Fin 58)
    (hY : 1 ≤ Y.val ∧ Y.val < 57) (hX : 1 ≤ X.val ∧ X.val < 57) :
    scratch x0 (ix3 c Y X) = x0 (ix4 (0 : Fin 1) c ⟨Y.val - 1, by omega⟩ ⟨X.val - 1, by omega⟩) := by
  unfold scratch scratchStores
  have e : (ix3 c Y X : S64x58x58.Idx)
      = (Rect.unit (s := S64x58x58) ![0, 1, 1] S64x56x56.size inb_S64x58x58_S64x56x56_0_1_1).emb
          (ix3 c (⟨Y.val - 1, by omega⟩ : Fin 56) (⟨X.val - 1, by omega⟩ : Fin 56)) := by
    funext a; apply Fin.ext
    match a with
    | ⟨0, _⟩ => show c.val = 0 + 1 * c.val; omega
    | ⟨1, _⟩ => show Y.val = 1 + 1 * (Y.val - 1); omega
    | ⟨2, _⟩ => show X.val = 1 + 1 * (X.val - 1); omega
  rw [e, View.canon_cons_emb]
  exact pay4_apply x0 c _ _

/-- On the ring the scratch is the zero it was filled with. -/
theorem scratch_ring (x0 : Vec F S1x64x56x56 .f32) (c : Fin 64) (Y X : Fin 58)
    (h : ¬((1 ≤ Y.val ∧ Y.val < 57) ∧ (1 ≤ X.val ∧ X.val < 57))) :
    scratch x0 (ix3 c Y X) = Scalar.ofBits .f32 0x00000000#32 := by
  unfold scratch scratchStores
  rw [View.canon_cons_of_not_mem _ _ (by
    rw [Rect.mem_set_unit]
    intro hm
    have h1 : 1 ≤ Y.val ∧ Y.val < 1 + 56 := hm 1
    have h2 : 1 ≤ X.val ∧ X.val < 1 + 56 := hm 2
    omega)]
  rw [View.canon_unit_zero hz3]
  show shapeCast S64x58x58 (broadcast S64x58x58 (Scalar.ofBits .f32 0x00000000#32)) shapeCasts_S64x58x58_S64x58x58 (ix3 c Y X) = _
  rw [shapeCast_self]
  rfl

/-! ## The output block -/

/-- The scratch position an entry of the output block is copied from: slot `s` reads the window starting at
    `(s / 3, s % 3)`. -/
def srcIdx (j : S1x64x9x56x56.Idx) : S64x58x58.Idx :=
  ix3 (j 1)
    (⟨(j 3).val + (j 2).val / 3, by have h3 : (j 3).val < 56 := (j 3).isLt; have h2 : (j 2).val < 9 := (j 2).isLt; omega⟩ : Fin 58)
    (⟨(j 4).val + (j 2).val % 3, by have h4 : (j 4).val < 56 := (j 4).isLt; have h2 : (j 2).val < 9 := (j 2).isLt; omega⟩ : Fin 58)

/-- The output block as a function of the scratch. -/
def blockOf (sc : S64x58x58.Idx → Elt F .f32) : S1x64x9x56x56.Idx → Elt F .f32 := fun j => sc (srcIdx j)

/-- A window of the scratch given its two unit axes, read at an index: the window at the three coordinates
    that are not on a unit axis. -/
theorem slot_cast_apply (v : S64x56x56.Idx → Elt F .f32) (x : S1x64x1x56x56.Idx) :
    shapeCast S1x64x1x56x56 v shapeCasts_S64x56x56_S1x64x1x56x56 x = v (ix3 (x 1) (x 3) (x 4)) :=
  shapeCast_apply v _ x _ (by
    rewrite [Shape.rowMajor_val_three, Shape.rowMajor_val_five]
    have h0 : (x 0).val < 1 := (x 0).isLt
    have h2 : (x 2).val < 1 := (x 2).isLt
    show ((x 1).val * 56 + (x 3).val) * 56 + (x 4).val
      = ((((x 0).val * 64 + (x 1).val) * 1 + (x 2).val) * 56 + (x 3).val) * 56 + (x 4).val
    omega)

/-- One of the nine stores: the window of the scratch starting at `(dy, dx)`, stored into slot `s = 3·dy + dx`,
    is the block's function at the indices the store covers. -/
theorem piece_eq (x0 : Vec F S1x64x56x56 .f32) (arg3 : Memref sig .tc .vmem S64x58x58 .f32) (dy dx s : Nat)
    (hdy : dy < 3) (hdx : dx < 3) (hs : s = 3 * dy + dx)
    (inbL : ∀ a, (![0, dy, dx] : Fin 3 → Nat) a + S64x56x56.size a ≤ S64x58x58.size a)
    (inbS : ∀ a, (![0, 0, s, 0, 0] : Fin 5 → Nat) a + S1x64x1x56x56.size a ≤ S1x64x9x56x56.size a)
    (x : S1x64x1x56x56.Idx) :
    shapeCast S1x64x1x56x56 (arg3.view.readCov (scratchStores x0) (Rect.unit (s := S64x58x58) ![0, dy, dx] S64x56x56.size inbL).toLoadRect)
        shapeCasts_S64x56x56_S1x64x1x56x56 x
      = blockOf (scratch x0) ((Rect.unit (s := S1x64x9x56x56) ![0, 0, s, 0, 0] S1x64x1x56x56.size inbS).emb x) := by
  subst hs
  rw [slot_cast_apply, View.readCov_eq_canon']
  show View.canon (scratchStores x0) _ = View.canon (scratchStores x0) _
  congr 1
  funext a; apply Fin.ext
  have h2 : (x 2).val < 1 := (x 2).isLt
  match a with
  | ⟨0, _⟩ => show 0 + 1 * (x 1).val = 0 + 1 * (x 1).val; rfl
  | ⟨1, _⟩ => show dy + 1 * (x 3).val = (0 + 1 * (x 3).val) + (3 * dy + dx + 1 * (x 2).val) / 3; omega
  | ⟨2, _⟩ => show dx + 1 * (x 4).val = (0 + 1 * (x 4).val) + (3 * dy + dx + 1 * (x 2).val) % 3; omega

/-- What the body leaves in the output block: the nine windows of the scratch, slot by slot. -/
theorem out_eq (c : Dev nD) (i : grid0.Coords) (arg1 : Memref sig .tc .vmem S1x64x56x56 .f32) (harg1 : arg1.IsWhole)
    (arg2 : Memref sig .tc .vmem S1x64x9x56x56 .f32) (harg2 : arg2.IsWhole)
    (arg3 : Memref sig .tc .vmem S64x58x58 .f32) (harg3 : arg3.IsWhole) (x0 : Vec F S1x64x56x56 .f32) :
    out0_A_1 c i arg1 harg1 arg2 harg2 arg3 harg3 x0 = blockOf (scratch x0) := by
  unfold out0_A_1
  rw [View.read_writes_junk_eq_canon]
  funext y
  refine View.canon_apply_of_pieces (blockOf (scratch x0)) _ ?_ y (cover0_A_1 c i arg1 harg1 arg2 harg2 arg3 harg3 x0 y)
  unfold kernelRun0_A
  dsimp only
  sl_unfold_words
  simp only [View.readAt_eq_ld, harg1.read_unread, View.ld_unit_zero (S := S1x64x56x56) hz4]
  refine List.forall_mem_cons.mpr ⟨fun x => piece_eq x0 arg3 2 2 8 (by decide) (by decide) rfl inb_S64x58x58_S64x56x56_0_2_2 inb_S1x64x9x56x56_S1x64x1x56x56_0_0_8_0_0 x, ?_⟩
  refine List.forall_mem_cons.mpr ⟨fun x => piece_eq x0 arg3 2 1 7 (by decide) (by decide) rfl inb_S64x58x58_S64x56x56_0_2_1 inb_S1x64x9x56x56_S1x64x1x56x56_0_0_7_0_0 x, ?_⟩
  refine List.forall_mem_cons.mpr ⟨fun x => piece_eq x0 arg3 2 0 6 (by decide) (by decide) rfl inb_S64x58x58_S64x56x56_0_2_0 inb_S1x64x9x56x56_S1x64x1x56x56_0_0_6_0_0 x, ?_⟩
  refine List.forall_mem_cons.mpr ⟨fun x => piece_eq x0 arg3 1 2 5 (by decide) (by decide) rfl inb_S64x58x58_S64x56x56_0_1_2 inb_S1x64x9x56x56_S1x64x1x56x56_0_0_5_0_0 x, ?_⟩
  refine List.forall_mem_cons.mpr ⟨fun x => piece_eq x0 arg3 1 1 4 (by decide) (by decide) rfl inb_S64x58x58_S64x56x56_0_1_1 inb_S1x64x9x56x56_S1x64x1x56x56_0_0_4_0_0 x, ?_⟩
  refine List.forall_mem_cons.mpr ⟨fun x => piece_eq x0 arg3 1 0 3 (by decide) (by decide) rfl inb_S64x58x58_S64x56x56_0_1_0 inb_S1x64x9x56x56_S1x64x1x56x56_0_0_3_0_0 x, ?_⟩
  refine List.forall_mem_cons.mpr ⟨fun x => piece_eq x0 arg3 0 2 2 (by decide) (by decide) rfl inb_S64x58x58_S64x56x56_0_0_2 inb_S1x64x9x56x56_S1x64x1x56x56_0_0_2_0_0 x, ?_⟩
  refine List.forall_mem_cons.mpr ⟨fun x => piece_eq x0 arg3 0 1 1 (by decide) (by decide) rfl inb_S64x58x58_S64x56x56_0_0_1 inb_S1x64x9x56x56_S1x64x1x56x56_0_0_1_0_0 x, ?_⟩
  refine List.forall_mem_cons.mpr ⟨fun x => piece_eq x0 arg3 0 0 0 (by decide) (by decide) rfl inb_S64x58x58_S64x56x56_0_0_0 inb_S1x64x9x56x56_S1x64x1x56x56_0_0_0_0_0 x, ?_⟩
  exact fun _ h => absurd h List.not_mem_nil

end Cert.KernelIdeal.Body

end
-- ==== Proof.ShiftArray.lean ====
/-
  The kernel's result array is the specification, with its channel and slot axes merged by the host.

  The grid has 32 points, and point `t` works on batch entry `t`: its input block is entry `t` of the input, and
  the block it writes back is entry `t` of the five-axis array (`idx_facts`). By the body's value the block written
  at point `t` has, at `(0, c, s, y, x)`, the scratch at `(c, y + s / 3, x + s % 3)`, which is the input of batch
  entry `t` one step up and to the left inside the interior and zero on the ring: the specification's entry at
  `(t, c, s, y, x)` (`block_entry`, `flushed_eq`). The 32 blocks tile the array (`cover`), so after the region the
  five-axis array is `Cert.Shift.shifted` of the input (`final`), and the one host operation after the region
  reshapes it (`run`).
-/
import proofs.«148560_j14422500180434_1_alg».proof.Proof.ShiftBody
import proofs.«148560_j14422500180434_1_alg».proof.Proof.ShiftSpec
import Idealize.ShloMosaic.PureOps.Ideal.Laws
import Idealize.ShloMosaic.Lib.StableHlo.Run
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.ArrayValue

open Cert.KernelIdeal Cert.KernelIdeal.Gen Cert.KernelIdeal.Body Cert.Shift

variable (m : (ℓ : Loc nD τ sig) → Buf (Elt Ideal) ℓ) (ρ : Dev nD → PrngReg)

/-- The grid has 32 points. -/
theorem t_lt (t : Fin cfg0.N) : t.val < 32 := by
  have h := t.isLt
  have hN : cfg0.N = 32 := N_0
  omega

/-- The printed index maps, decided over the grid: point `t` reads and writes batch entry `t`, whole on every other axis. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 5) = t.val ∧ win0_1.index t (1 : Fin 5) = 0 ∧ win0_1.index t (2 : Fin 5) = 0
    ∧ win0_1.index t (3 : Fin 5) = 0 ∧ win0_1.index t (4 : Fin 5) = 0 :=
  (by decide +kernel : ∀ t : Fin grid0.N, _)

/-- The input block at point `t` is batch entry `t` of the input. -/
theorem iblk_at (c : Dev nD) (t : Fin cfg0.N) (cc : Fin 64) (y w : Fin 56) :
    (iblk m c 0 t : Vec Ideal S1x64x56x56 .f32) (ix4 (0 : Fin 1) cc y w)
      = (m ((c : Thread nD τ).loc main_arg0) : S32x64x56x56.Idx → Elt Ideal .f32) (ix4 (⟨t.val, t_lt t⟩ : Fin 32) cc y w) := by
  obtain ⟨e0, e1, e2, e3, -⟩ := idx_facts t
  have hV := V_main_arg0 m c
  unfold iblk
  rw [View.read_apply]
  show V m c main_arg0 _ = _
  rw [hV]
  congr 1
  funext a
  apply Fin.ext
  match a with
  | ⟨0, _⟩ => show win0_0.index t (0 : Fin 4) * 1 + 1 * 0 = t.val; omega
  | ⟨1, _⟩ => show win0_0.index t (1 : Fin 4) * 64 + 1 * cc.val = cc.val; omega
  | ⟨2, _⟩ => show win0_0.index t (2 : Fin 4) * 56 + 1 * y.val = y.val; omega
  | ⟨3, _⟩ => show win0_0.index t (3 : Fin 4) * 56 + 1 * w.val = w.val; omega

/-- What the output's staging buffer holds after the body at point `t`. -/
theorem outsAt_eq (c : Dev nD) (t : Fin cfg0.N) : outsAt0 m c t = blockOf (scratch (iblk m c 0 t)) :=
  out_eq (F := Ideal) c (grid0.coords t) (ms0_0 t) (hs0_0 t) (ms0_1 t) (hs0_1 t) scM0_0 (Memref.isWhole_whole _) (iblk m c 0 t)

/-- An entry of the block written at point `t`: the zero-padded input of batch entry `t` at the window's position. -/
theorem block_entry (c : Dev nD) (t : Fin cfg0.N) (j0 : Fin 1) (cc : Fin 64) (s : Fin 9) (y w : Fin 56) :
    blockOf (scratch (iblk m c 0 t)) (ix5 j0 cc s y w)
      = padded (m ((c : Thread nD τ).loc main_arg0)) (⟨t.val, t_lt t⟩ : Fin 32) cc (y.val + s.val / 3) (w.val + s.val % 3) := by
  have hs : s.val < 9 := s.isLt
  have hy : y.val < 56 := y.isLt
  have hw : w.val < 56 := w.isLt
  have hY58 : y.val + s.val / 3 < 58 := by omega
  have hX58 : w.val + s.val % 3 < 58 := by omega
  show scratch (iblk m c 0 t) (ix3 cc (⟨y.val + s.val / 3, hY58⟩ : Fin 58) (⟨w.val + s.val % 3, hX58⟩ : Fin 58)) = _
  by_cases h : (1 ≤ y.val + s.val / 3 ∧ y.val + s.val / 3 < 57) ∧ (1 ≤ w.val + s.val % 3 ∧ w.val + s.val % 3 < 57)
  · refine (scratch_inside (iblk m c 0 t) cc ⟨_, hY58⟩ ⟨_, hX58⟩ h.1 h.2).trans ?_
    refine Eq.trans ?_ (padded_inside _ _ _ _ _ h.1 h.2).symm
    exact iblk_at m c t cc _ _
  · refine (scratch_ring (iblk m c 0 t) cc ⟨_, hY58⟩ ⟨_, hX58⟩ h).trans ?_
    refine Eq.trans ?_ (padded_ring _ _ _ _ _ h).symm
    exact Ideal.ofBits_zero_f32

/-- An index of the five-axis array is in point `t`'s block iff each coordinate is in the block's range on its axis. -/
theorem mem_blk (t : Fin cfg0.N) (i : S32x64x9x56x56.Idx) :
    i ∈ ((cfg0.win 1).blk t).view.set ↔ ∀ a : Fin 5, win0_1.index t a * S1x64x9x56x56.size a ≤ (i a).val ∧ (i a).val < win0_1.index t a * S1x64x9x56x56.size a + S1x64x9x56x56.size a := by
  show i ∈ ((View.whole main_v0).slice (win0_1.rect t)).set ↔ _
  rw [View.set_slice_whole, Rect.mem_set_unit]
  exact Iff.rfl

/-- What point `t` writes back is block `t` of the specification of the input. -/
theorem flushed_eq (c : Dev nD) (t : Fin cfg0.N) :
    (dats m 0 c).flushed 1 t = ((cfg0.win 1).blk t).view.read (Elt Ideal) (shifted (m ((c : Thread nD τ).loc main_arg0))) := by
  show (cfg0.win 1).cut (grid0.coords t) ((dats m 0 c).after 1 t) = _
  rw [after0_1, outsAt_eq]
  obtain ⟨-, -, -, -, e0, e1, e2, e3, e4⟩ := idx_facts t
  funext j
  obtain ⟨j0, cc, s, y, w, rfl⟩ : ∃ (j0 : Fin 1) (cc : Fin 64) (s : Fin 9) (y w : Fin 56), j = ix5 j0 cc s y w :=
    ⟨j 0, j 1, j 2, j 3, j 4, eq_ix5 j⟩
  show blockOf (scratch (iblk m c 0 t)) (ix5 j0 cc s y w)
    = shifted (m ((c : Thread nD τ).loc main_arg0)) (((cfg0.win 1).blk t).view.emb (ix5 j0 cc s y w))
  have e : ((cfg0.win 1).blk t).view.emb (ix5 j0 cc s y w) = ix5 (⟨t.val, t_lt t⟩ : Fin 32) cc s y w := by
    have hj0 : j0.val < 1 := j0.isLt
    funext a
    apply Fin.ext
    match a with
    | ⟨0, _⟩ => show win0_1.index t (0 : Fin 5) * 1 + 1 * j0.val = t.val; omega
    | ⟨1, _⟩ => show win0_1.index t (1 : Fin 5) * 64 + 1 * cc.val = cc.val; omega
    | ⟨2, _⟩ => show win0_1.index t (2 : Fin 5) * 9 + 1 * s.val = s.val; omega
    | ⟨3, _⟩ => show win0_1.index t (3 : Fin 5) * 56 + 1 * y.val = y.val; omega
    | ⟨4, _⟩ => show win0_1.index t (4 : Fin 5) * 56 + 1 * w.val = w.val; omega
  rw [e, shifted_apply]
  exact block_entry m c t j0 cc s y w

/-- Every index of the five-axis array is in the block of the point its batch coordinate names. -/
theorem cover (i : S32x64x9x56x56.Idx) :
    ∃ t : Fin cfg0.N, (cfg0.win 1).flush t = true ∧ i ∈ ((cfg0.win 1).blk t).view.set := by
  have hN : cfg0.N = 32 := N_0
  have h0 : (i 0).val < 32 := (i 0).isLt
  have h1 : (i 1).val < 64 := (i 1).isLt
  have h2 : (i 2).val < 9 := (i 2).isLt
  have h3 : (i 3).val < 56 := (i 3).isLt
  have h4 : (i 4).val < 56 := (i 4).isLt
  have ht : (i 0).val < cfg0.N := by omega
  refine ⟨⟨(i 0).val, ht⟩, flush0_1 _, ?_⟩
  obtain ⟨-, -, -, -, e0, e1, e2, e3, e4⟩ := idx_facts ⟨(i 0).val, ht⟩
  have e0' : win0_1.index ⟨(i 0).val, ht⟩ (0 : Fin 5) = (i 0).val := e0
  rw [mem_blk]
  intro a
  match a with
  | ⟨0, _⟩ => show win0_1.index ⟨(i 0).val, ht⟩ (0 : Fin 5) * 1 ≤ (i 0).val ∧ (i 0).val < win0_1.index ⟨(i 0).val, ht⟩ (0 : Fin 5) * 1 + 1; omega
  | ⟨1, _⟩ => show win0_1.index ⟨(i 0).val, ht⟩ (1 : Fin 5) * 64 ≤ (i 1).val ∧ (i 1).val < win0_1.index ⟨(i 0).val, ht⟩ (1 : Fin 5) * 64 + 64; omega
  | ⟨2, _⟩ => show win0_1.index ⟨(i 0).val, ht⟩ (2 : Fin 5) * 9 ≤ (i 2).val ∧ (i 2).val < win0_1.index ⟨(i 0).val, ht⟩ (2 : Fin 5) * 9 + 9; omega
  | ⟨3, _⟩ => show win0_1.index ⟨(i 0).val, ht⟩ (3 : Fin 5) * 56 ≤ (i 3).val ∧ (i 3).val < win0_1.index ⟨(i 0).val, ht⟩ (3 : Fin 5) * 56 + 56; omega
  | ⟨4, _⟩ => show win0_1.index ⟨(i 0).val, ht⟩ (4 : Fin 5) * 56 ≤ (i 4).val ∧ (i 4).val < win0_1.index ⟨(i 0).val, ht⟩ (4 : Fin 5) * 56 + 56; omega

/-- After the region the five-axis array is the specification of the input. -/
theorem final (c : Dev nD) : (dats m 0 c).arrAt 1 cfg0.N = shifted (m ((c : Thread nD τ).loc main_arg0)) :=
  (dats m 0 c).arrAt_eq_of_cover 1 (shifted (m ((c : Thread nD τ).loc main_arg0))) (fun t _ => flushed_eq m c t) cover

/-- The host operation after the region reshapes that array. -/
theorem tail_eq (c : Dev nD) :
    Pipeline.afterTail₀ cfgs (dats m) 0 (V0 m) [hostOps1] c main_v1
      = shapeCast S32x576x56x56 (shifted (m ((c : Thread nD τ).loc main_arg0))) shapeCasts_S32x64x9x56x56_S32x576x56x56 := by
  unfold Pipeline.afterTail₀
  show StableHlo.after hostOps1 _ (Proc.devRef .tc main_v1) = _
  after_results
  have hw : Pipeline.withArrays (cfgs 0).spec c (V0 m c) (fun w => (dats m 0 c).arrAt w (cfgs 0).N) (Proc.tc.devRef main_v0)
      = shifted (m ((c : Thread nD τ).loc main_arg0)) :=
    (Pipeline.withArrays_arr spec0 launch0.win.arr_inj c _ _ 1).trans (final m c)
  rw [hw]
  rfl

/-- The result buffer is no array of the region and is not scoped: the region leaves it to the host operation. -/
theorem v1_rest : main_v1 ∈ Pipeline.restRefs sig (cfgs 0).spec :=
  Pipeline.mem_restRefs_of main_v1 rfl (fun w => by fin_cases w <;> decide)

/-- The run, read: every weakly fair execution ends with the result buffer at the reshaped specification of the
    input, and the input unchanged. -/
theorem run : θ_run defs (onTc (τ := τ) (main (F := Ideal))) ⟨m, fun _ => 0, ρ⟩ fun r => ∀ c : Dev nD,
      r.2.mem ((c.tc : Thread nD τ).loc main_v1)
          = shapeCast S32x576x56x56 (shifted (m ((c.tc : Thread nD τ).loc main_arg0))) shapeCasts_S32x64x9x56x56_S32x576x56x56
      ∧ r.2.mem ((c.tc : Thread nD τ).loc main_arg0) = m ((c.tc : Thread nD τ).loc main_arg0) :=
  (θ_run defs _ _).mono (fun _ h c =>
      ⟨((h c).2 main_v1 v1_rest).trans (tail_eq m c),
       ((h c).1 0).trans (((dats m 0 c).arrAt_in 0 rfl _).trans ((A_eq m c 0).trans (V_main_arg0 m c)))⟩)
    (run_main m ρ)

end Cert.KernelIdeal.ArrayValue

end
-- ==== Proof.lean ====
/-
  The shift operator: a kernel that works one batch entry at a time against a whole-array reference, equal at the
  ideal instance.

  Both programs take an array `x` of extents 32 × 64 × 56 × 56 and return, for every batch entry and channel, the
  nine 56 × 56 windows of the channel's zero-padded 58 × 58 image that start at `(dy, dx)`, `dy, dx ∈ {0, 1, 2}`,
  stacked in the order `s = 3·dy + dx` on a new axis after the channel axis, that axis then merged with the channel
  axis: an array of extents 32 × 576 × 56 × 56. The specification `Cert.Shift.shifted` (Proof/ShiftSpec.lean) is the
  five-axis array before the merge.

  The kernel handles one batch entry per grid point: it zero-fills a scratch image, stores the input block into its
  interior and stores the nine windows of the scratch into the nine slots of its output block (Proof/ShiftBody.lean);
  the blocks tile the five-axis array, which is therefore the specification (Proof/ShiftArray.lean), and the host
  reshapes it. The reference pads on the host, slices nine times, and joins the slices; read at an index that is
  the specification too (Proof/ShiftRef.lean), followed by the same reshape. The two results are one term of the
  input: the reshape of the specification. No arithmetic is involved, only where each entry is copied from, and the
  padding value is the real number zero on both sides (the float constant zero in the kernel, the integer zero
  converted to a float in the reference), so the input's finiteness is never used.

  The three frame claims are the generated frame runs; the idealization changed no operation, so `preserves` is
  trivial.
-/
import proofs.«148560_j14422500180434_1_alg».proof.Defs
import proofs.«148560_j14422500180434_1_alg».proof.Proof.Gen.Kernel
import proofs.«148560_j14422500180434_1_alg».proof.Proof.Gen.Kernel.Skeleton
import proofs.«148560_j14422500180434_1_alg».proof.Proof.Gen.Kernel.Launch
import proofs.«148560_j14422500180434_1_alg».proof.Proof.Gen.Kernel.Points
import proofs.«148560_j14422500180434_1_alg».proof.Proof.Gen.Kernel.Frame
import proofs.«148560_j14422500180434_1_alg».proof.Proof.Gen.KernelIdeal
import proofs.«148560_j14422500180434_1_alg».proof.Proof.Gen.KernelIdeal.Skeleton
import proofs.«148560_j14422500180434_1_alg».proof.Proof.Gen.KernelIdeal.Launch
import proofs.«148560_j14422500180434_1_alg».proof.Proof.Gen.KernelIdeal.Points
import proofs.«148560_j14422500180434_1_alg».proof.Proof.Gen.KernelIdeal.Frame
import proofs.«148560_j14422500180434_1_alg».proof.Proof.Gen.ReferenceIdeal
import proofs.«148560_j14422500180434_1_alg».proof.Proof.Gen.Pre_finite_inputs
import proofs.«148560_j14422500180434_1_alg».proof.Proof.Gen.ReferenceIdeal.Run
import proofs.«148560_j14422500180434_1_alg».proof.Proof.Gen.ReferenceIdeal.Read
import proofs.«148560_j14422500180434_1_alg».proof.Proof.ShiftSpec
import proofs.«148560_j14422500180434_1_alg».proof.Proof.ShiftRef
import proofs.«148560_j14422500180434_1_alg».proof.Proof.ShiftBody
import proofs.«148560_j14422500180434_1_alg».proof.Proof.ShiftArray
import Idealize.ShloMosaic.Adequacy
import Idealize.ShloMosaic.Init

noncomputable section

namespace Cert.Proof

open Idealize.ShloMosaic Idealize.SL.Sem

/-- The kernel as printed runs and keeps its input: the generated frame run. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its input: its generated run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- From memories agreeing on the input both programs end with the result buffer at the reshaped specification of
    that input: the kernel by its blocks (`ArrayValue.run`), the reference by its stages read at an index
    (`RefValue.result_eq`). -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.RefValue.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
